-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x768 : Shape := ⟨2, ![100000, 768]⟩
abbrev S2x1600000 : Shape := ⟨2, ![2, 1600000]⟩
abbrev S768x128 : Shape := ⟨2, ![768, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x768 : S_.BroadcastsInDim S100000x768 (![] : Fin 0 → Fin S100000x768.rank)
  reducesTo_S100000x768_S_d0_1 : S100000x768.ReducesTo [0, 1] S_
  h_S_ : 0 < S_.numel
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x768 .f32) (main_arg1 : IVec S2x1600000 32) (main_arg2 : FVec F S768x128 .f32) (main_arg3 : FVec F S128 .f32) (main_arg4 : FVec F S128x64 .f32) (main_arg5 : FVec F S64 .f32) : IVec S_ 1 :=
  let main_v0 : FVec F S100000x768 .f32 := Host.absf main_arg0
  let main_cst : FVec F S_ .f32 := constant S_ .f32 0x7F800000#32
  let main_v1 : FVec F S100000x768 .f32 := broadcastInDim S100000x768 ![] bcast_S_S100000x768 main_cst
  let main_v2 : IVec S100000x768 1 := cmpf .olt main_v0 main_v1
  let main_c : IVec S_ 1 := constantI S_ 1 1#1
  let main_v3 : IVec S_ 1 := (fun x v => Host.reduce IntOp.andi x v reducesTo_S100000x768_S_d0_1 h_S_) main_v2 main_c
  let main_v4 : FVec F S768x128 .f32 := Host.absf main_arg2
  let main_cst_0 : FVec F S_ .f32 := constant S_ .f32 0x7F800000#32
  let main_v5 : FVec F S768x128 .f32 := broadcastInDim S768x128 ![] bcast_S_S768x128 main_cst_0
  let main_v6 : IVec S768x128 1 := cmpf .olt main_v4 main_v5
  let main_c_1 : IVec S_ 1 := constantI S_ 1 1#1
  let main_v7 : IVec S_ 1 := (fun x v => Host.reduce IntOp.andi x v reducesTo_S768x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x768 : Shape := ⟨2, ![100000, 768]⟩
abbrev S2x1600000 : Shape := ⟨2, ![2, 1600000]⟩
abbrev S768x128 : Shape := ⟨2, ![768, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x768 : Shape := ⟨2, ![2000, 768]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S100000x768, .f32⟩
  | .hbm, ⟨1, _⟩ => ⟨S2x1600000, .i32⟩
  | .hbm, ⟨2, _⟩ => ⟨S768x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S2000x768, .f32⟩
  | .local _ .vmem, ⟨1, _⟩ => ⟨S2000x768, .f32⟩
  | .local _ .vmem, ⟨2, _⟩ => ⟨S768x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S100000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x768_S768x128_S2000x128_1_0_0_1_n_n_wf : DotDims.WF S2000x768 S768x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S100000x768.size a
  hwx0_0 : ∀ i : grid0.Coords, EltTy.bits .f32 = 32 ∨ (Rect.block (s := S100000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x768_S768x128_S2000x128_1_0_0_1_n_n : DotDims S2000x768 S768x128 S2000x128 where
  lhsContracting := [1]
  rhsContracting := [0]
  lhsNonContracting := [0]
  rhsNonContracting := [1]
  lhsBatch := []
  rhsBatch := []
  wf := dot_S2000x768_S768x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x768 : Shape := ⟨2, ![100000, 768]⟩
abbrev S2x1600000 : Shape := ⟨2, ![2, 1600000]⟩
abbrev S768x128 : Shape := ⟨2, ![768, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S100000x768, .f32⟩
  | .hbm, ⟨1, _⟩ => ⟨S2x1600000, .i32⟩
  | .hbm, ⟨2, _⟩ => ⟨S768x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x64, .f32⟩
  | .hbm, ⟨115, _⟩ => ⟨S1700000x1, .f32⟩
  | .hbm, ⟨116, _⟩ => ⟨S1700000x64, .f32⟩
  | .hbm, ⟨117, _⟩ => ⟨S1700000x64, .f32⟩
  | .hbm, ⟨118, _⟩ => ⟨S_, .f32⟩
  | .hbm, ⟨119, _⟩ => ⟨S100000x64, .f32⟩
  | .hbm, ⟨120, _⟩ => ⟨S1700000x1, .i32⟩
  | .hbm, ⟨121, _⟩ => ⟨S100000x64, .f32⟩
  | .hbm, ⟨122, _⟩ => ⟨S1x64, .f32⟩
  | .hbm, ⟨123, _⟩ => ⟨S100000x64, .f32⟩
  | .hbm, ⟨124, _⟩ => ⟨S100000x64, .f32⟩
  | _, _ => ⟨S100000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x768_S768x128_S100000x128_1_0_0_1_n_n_wf : DotDims.WF S100000x768 S768x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x768_S768x128_S100000x128_1_0_0_1_n_n : DotDims S100000x768 S768x128 S100000x128 where
  lhsContracting := [1]
  rhsContracting := [0]
  lhsNonContracting := [0]
  rhsNonContracting := [1]
  lhsBatch := []
  rhsBatch := []
  wf := dot_S100000x768_S768x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The run of the idealized two-layer graph convolution, with its result.

  @main is four tiled stages among stretches of host operations. Running it from any memory, every weakly fair execution
  terminates without a fault; each argument array ends as it was launched, and the result array ends at the contents the
  last stage's write-backs leave: the last of the boundary contents that the run folds through @main (host stretch:
  the operations applied in order; stage: its arrays at what the pipeline leaves). The statement is the frame's with one
  more conjunct, read off the same final thread state: every unscoped buffer is held at the last boundary's contents,
  and the result array is one of them.
-/
import proofs.«102344_j45114336477305_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary's
    contents and every argument array as launched. -/
theorem run_main : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Whole

end
-- ==== Proof.Spec.lean ====
/-
  What the four tiled stages of the two-layer graph convolution compute, as whole arrays on the extended reals.

  * `matProd M K N x w`: the product of an [M, K] matrix and a [K, N] matrix, entry (r, j) the sum over k < K of
    x(r, k) · w(k, j). A row block of the product depends only on the same rows of x, so computing it 2000 rows at a
    time gives the same array.
  * `addRow M N a b`: the one-row matrix b added to every row of a, entry (r, j) being a(r, j) + b(0, j).
  * `addRowPos M N a b`: the same followed by the positive part, max (a(r, j) + b(0, j)) 0, the zero kept as the
    word it is written with.
-/
import Idealize.ShloMosaic.PureOps.Ideal.Laws
import Idealize.ShloMosaic.Lib.ValueIdx

noncomputable section

namespace Cert.Spec

open Idealize.ShloMosaic Idealize.ShloMosaic.ValueIdx

/-- The matrix product: entry (r, j) is the sum over k of x(r, k) · w(k, j). -/
def matProd (M K N : Nat) (x : FVec Ideal ⟨2, ![M, K]⟩ .f32) (w : FVec Ideal ⟨2, ![K, N]⟩ .f32) :
    FVec Ideal ⟨2, ![M, N]⟩ .f32 :=
  fun i => ∑ k : Fin K, x (ix2 (i 0) k) * w (ix2 k (i 1))

/-- A one-row matrix added to every row. -/
def addRow (M N : Nat) (a : FVec Ideal ⟨2, ![M, N]⟩ .f32) (b : FVec Ideal ⟨2, ![1, N]⟩ .f32) :
    FVec Ideal ⟨2, ![M, N]⟩ .f32 :=
  fun i => a i + b (ix2 (0 : Fin 1) (i 1))

/-- A one-row matrix added to every row, then the positive part. -/
def addRowPos (M N : Nat) (a : FVec Ideal ⟨2, ![M, N]⟩ .f32) (b : FVec Ideal ⟨2, ![1, N]⟩ .f32) :
    FVec Ideal ⟨2, ![M, N]⟩ .f32 :=
  fun i => max (a i + b (ix2 (0 : Fin 1) (i 1))) (Ideal.ofBits .f32 0x00000000#32)

theorem matProd_apply (M K N : Nat) (x : FVec Ideal ⟨2, ![M, K]⟩ .f32) (w : FVec Ideal ⟨2, ![K, N]⟩ .f32)
    (i : (⟨2, ![M, N]⟩ : Shape).Idx) :
    matProd M K N x w i = ∑ k : Fin K, x (ix2 (i 0) k) * w (ix2 k (i 1)) := rfl

theorem addRow_apply (M N : Nat) (a : FVec Ideal ⟨2, ![M, N]⟩ .f32) (b : FVec Ideal ⟨2, ![1, N]⟩ .f32)
    (i : (⟨2, ![M, N]⟩ : Shape).Idx) : addRow M N a b i = a i + b (ix2 (0 : Fin 1) (i 1)) := rfl

theorem addRowPos_apply (M N : Nat) (a : FVec Ideal ⟨2, ![M, N]⟩ .f32) (b : FVec Ideal ⟨2, ![1, N]⟩ .f32)
    (i : (⟨2, ![M, N]⟩ : Shape).Idx) :
    addRowPos M N a b i = max (a i + b (ix2 (0 : Fin 1) (i 1))) (Ideal.ofBits .f32 0x00000000#32) := rfl

end Cert.Spec

end
-- ==== Proof.Glue.lean ====
/-
  The host side of the graph convolution, as functions of the edge list.

  The edge list e is a [2, 1600000] array of node numbers: row 0 the sources, row 1 the destinations. A self loop is
  appended for each of the 100000 nodes (`srcIds`, `dstIds`: the row followed by 0 … 99999). The degree of a node is the
  number of edges arriving at it, a scatter-add of ones (`deg`); its inverse square root where the degree is positive,
  zero elsewhere, is `dinv`; an edge's weight is the product of `dinv` at its two ends (`norm`), read by a gather whose
  negative indices are first shifted up by the node count (`wrap`). One propagation step (`agg128`, `agg64`) gathers the
  rows of a feature matrix at the edges' sources, scales each by its edge's weight, and adds them up at the edges'
  destinations. Both programs spell these steps with the same operations; here they are named once.
-/
import proofs.«102344_j45114336477305_1_alg».proof.Proof.Gen.KernelIdeal
import proofs.«102344_j45114336477305_1_alg».proof.Proof.Spec

noncomputable section

namespace Cert.KernelIdeal.Glue

open Cert.KernelIdeal Cert.KernelIdeal.Facts₀ Cert.KernelIdeal.Facts Idealize.ShloMosaic

/-- The edge list's contents. -/
abbrev Edges := IVec S2x1600000 32
/-- One node number per edge, the self loops included. -/
abbrev Ids := IVec S1700000 32

/-- The sources, then one self loop per node. -/
def srcIds (e : Edges) : Ids :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The destinations, then one self loop per node. -/
def dstIds (e : Edges) : Ids :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative node number counted from the end. -/
def wrap (v : Ids) : Ids :=
  select (cmpi .slt v (broadcastInDim S1700000 ![] bcast_S_S1700000 (constantI S_ 32 0#32))) (addi v (broadcastInDim S1700000 ![] bcast_S_S1700000 (constantI S_ 32 100000#32))) v

/-- The number of edges arriving at each node. -/
def deg (e : Edges) : FVec Ideal S100000 .f32 :=
  Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 (dstIds e)) (broadcastInDim S1700000 ![] bcast_S_S1700000 (constant (F := Ideal) S_ .f32 0x3F800000#32))

/-- The inverse square root of the degree where it is positive, zero elsewhere. -/
def dinv (e : Edges) : FVec Ideal S100000 .f32 :=
  select (cmpf (F := Ideal) .ogt (deg e) (broadcastInDim S100000 ![] bcast_S_S100000 (constant (F := Ideal) S_ .f32 0x00000000#32))) (Host.rsqrt (F := Ideal) (deg e)) (broadcastInDim S100000 ![] bcast_S_S100000 (id (constant (F := Ideal) S_ .f32 0x00000000#32)))

/-- The weight of each edge: `dinv` at its source times `dinv` at its destination. -/
def norm (e : Edges) : FVec Ideal S1700000 .f32 :=
  mulf (F := Ideal) (Host.gather gather_S100000_S1700000x1_S1700000_n_0_n_n_0_1_1 (dinv e) (broadcastInDim S1700000x1 ![0] bcast_S1700000_S1700000x1_0 (wrap (srcIds e)))) (Host.gather gather_S100000_S1700000x1_S1700000_n_0_n_n_0_1_1 (dinv e) (broadcastInDim S1700000x1 ![0] bcast_S1700000_S1700000x1_0 (wrap (dstIds e))))

/-- One propagation step on 128 features. -/
def agg128 (e : Edges) (nrm : FVec Ideal S1700000 .f32) (h : FVec Ideal S100000x128 .f32) : FVec Ideal S100000x128 .f32 :=
  Host.scatterAdd (F := Ideal) scatter_S100000x128_S1700000x1_S1700000x128_1_0_0_1 (broadcastInDim S100000x128 ![] bcast_S_S100000x128 (constant (F := Ideal) S_ .f32 0x00000000#32)) (broadcastInDim S1700000x1 ![0] bcast_S1700000_S1700000x1_0 (dstIds e)) (mulf (F := Ideal) (Host.gather gather_S100000x128_S1700000x1_S1700000x128_1_0_n_n_0_1_1128 h (broadcastInDim S1700000x1 ![0] bcast_S1700000_S1700000x1_0 (wrap (srcIds e)))) (broadcastInDim S1700000x128 ![0, 1] bcast_S1700000x1_S1700000x128_0_1 (broadcastInDim S1700000x1 ![0] bcast_S1700000_S1700000x1_0 nrm)))

/-- One propagation step on 64 features. -/
def agg64 (e : Edges) (nrm : FVec Ideal S1700000 .f32) (h : FVec Ideal S100000x64 .f32) : FVec Ideal S100000x64 .f32 :=
  Host.scatterAdd (F := Ideal) scatter_S100000x64_S1700000x1_S1700000x64_1_0_0_1 (broadcastInDim S100000x64 ![] bcast_S_S100000x64 (constant (F := Ideal) S_ .f32 0x00000000#32)) (broadcastInDim S1700000x1 ![0] bcast_S1700000_S1700000x1_0 (dstIds e)) (mulf (F := Ideal) (Host.gather gather_S100000x64_S1700000x1_S1700000x64_1_0_n_n_0_1_164 h (broadcastInDim S1700000x1 ![0] bcast_S1700000_S1700000x1_0 (wrap (srcIds e)))) (broadcastInDim S1700000x64 ![0, 1] bcast_S1700000x1_S1700000x64_0_1 (broadcastInDim S1700000x1 ![0] bcast_S1700000_S1700000x1_0 nrm)))

/-- The whole network as the tiled program computes it: product, propagation, bias and positive part; product,
    propagation, bias. -/
def network (x : FVec Ideal S100000x768 .f32) (e : Edges) (w1 : FVec Ideal S768x128 .f32)
    (b1 : FVec Ideal S128 .f32) (w2 : FVec Ideal S128x64 .f32)
    (b2 : FVec Ideal S64 .f32) : FVec Ideal S100000x64 .f32 :=
  Cert.Spec.addRow 100000 64
    (agg64 e (norm e) (Cert.Spec.matProd 100000 128 64
      (Cert.Spec.addRowPos 100000 128 (agg128 e (norm e) (Cert.Spec.matProd 100000 768 128 x w1)) (shapeCast S1x128 b1 shapeCasts_S128_S1x128)) w2))
    (shapeCast S1x64 b2 shapeCasts_S64_S1x64)

end Cert.KernelIdeal.Glue

end
-- ==== Proof.HostChain.lean ====
/-
  The buffer contents at the boundaries of @main, read as functions of the arguments.

  The run folds the launch memory through @main: a stretch of host operations applies them in order; a tiled stage leaves
  its result array at what its write-backs make of the entry contents and every other buffer as it was. Read at the
  buffers that matter this gives, boundary by boundary: before the first stage the edges' source and destination numbers
  and the edge weights are the host's functions of the edge list, and every argument is as launched; each propagation
  step is the host's gather, scale and scatter-add applied to the stage result before it; each bias row is the bias
  vector as a one-row matrix; and no stage or stretch in between touches a buffer a later one reads. Composed, the
  result array is the network of Glue applied to the six arguments — given what each stage's array holds after the
  stage as a function of its two input arrays (the four hypotheses `f0` … `f3`).
-/
import proofs.«102344_j45114336477305_1_alg».proof.Proof.Gen.KernelIdeal.Frame
import proofs.«102344_j45114336477305_1_alg».proof.Proof.Glue
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The first stretch: from the launch memory -/

set_option maxHeartbeats 4000000 in
theorem W1_v5 : W1 m ρ c (Proc.devRef .tc main_v5) = Glue.srcIds (m ((c.tc : Thread nD τ).loc main_arg1)) := by
  show StableHlo.after hostOps0 (W0 m ρ c) (Proc.devRef .tc main_v5) = _
  dsimp only [hostOps0]
  after_results_simp
  rfl

set_option maxHeartbeats 4000000 in
theorem W1_v6 : W1 m ρ c (Proc.devRef .tc main_v6) = Glue.dstIds (m ((c.tc : Thread nD τ).loc main_arg1)) := by
  show StableHlo.after hostOps0 (W0 m ρ c) (Proc.devRef .tc main_v6) = _
  dsimp only [hostOps0]
  after_results_simp
  rfl

set_option maxHeartbeats 4000000 in
theorem W1_v12 : W1 m ρ c (Proc.devRef .tc main_v12) = cmpf (F := Ideal) .ogt (Glue.deg (m ((c.tc : Thread nD τ).loc main_arg1))) (broadcastInDim S100000 ![] Facts₀.bcast_S_S100000 (constant (F := Ideal) S_ .f32 0x00000000#32)) := by
  show StableHlo.after hostOps0 (W0 m ρ c) (Proc.devRef .tc main_v12) = _
  dsimp only [hostOps0]
  after_results_simp
  rfl

set_option maxHeartbeats 4000000 in
theorem W1_v13 : W1 m ρ c (Proc.devRef .tc main_v13) = Host.rsqrt (F := Ideal) (Glue.deg (m ((c.tc : Thread nD τ).loc main_arg1))) := by
  show StableHlo.after hostOps0 (W0 m ρ c) (Proc.devRef .tc main_v13) = _
  dsimp only [hostOps0]
  after_results_simp
  rfl

set_option maxHeartbeats 4000000 in
theorem W1_cst2 : W1 m ρ c (Proc.devRef .tc main_cst_2) = constant (F := Ideal) S_ .f32 0x00000000#32 := by
  show StableHlo.after hostOps0 (W0 m ρ c) (Proc.devRef .tc main_cst_2) = _
  dsimp only [hostOps0]
  after_results_simp

set_option maxHeartbeats 4000000 in
theorem W1_arg0 : W1 m ρ c (Proc.devRef .tc main_arg0) = (m ((c.tc : Thread nD τ).loc main_arg0)) := by
  show StableHlo.after hostOps0 (W0 m ρ c) (Proc.devRef .tc main_arg0) = _
  dsimp only [hostOps0]
  after_results_simp

set_option maxHeartbeats 4000000 in
theorem W1_arg2 : W1 m ρ c (Proc.devRef .tc main_arg2) = (m ((c.tc : Thread nD τ).loc main_arg2)) := by
  show StableHlo.after hostOps0 (W0 m ρ c) (Proc.devRef .tc main_arg2) = _
  dsimp only [hostOps0]
  after_results_simp

set_option maxHeartbeats 4000000 in
theorem W1_arg3 : W1 m ρ c (Proc.devRef .tc main_arg3) = (m ((c.tc : Thread nD τ).loc main_arg3)) := by
  show StableHlo.after hostOps0 (W0 m ρ c) (Proc.devRef .tc main_arg3) = _
  dsimp only [hostOps0]
  after_results_simp

set_option maxHeartbeats 4000000 in
theorem W1_arg4 : W1 m ρ c (Proc.devRef .tc main_arg4) = (m ((c.tc : Thread nD τ).loc main_arg4)) := by
  show StableHlo.after hostOps0 (W0 m ρ c) (Proc.devRef .tc main_arg4) = _
  dsimp only [hostOps0]
  after_results_simp

set_option maxHeartbeats 4000000 in
theorem W1_arg5 : W1 m ρ c (Proc.devRef .tc main_arg5) = (m ((c.tc : Thread nD τ).loc main_arg5)) := by
  show StableHlo.after hostOps0 (W0 m ρ c) (Proc.devRef .tc main_arg5) = _
  dsimp only [hostOps0]
  after_results_simp

/-! ## A called function's values: contents at the value's type are contents of its buffer

A function outlined in the program (here the select between the inverse square root and zero) names its values by typed
references; reading or writing a buffer through one transports the contents along an equation between the buffer's type
and the value's, which for these literal buffers is the identity. -/

theorem to_v14 (v : FVec Ideal S100000 .f32) : (TRef.of (sig := sig) (T := ⟨S100000, .f32⟩) main_v14).toBuf (Val := Elt Ideal) v = v := rfl
theorem of_v12 (v : IVec S100000 1) : (TRef.of (sig := sig) (T := ⟨S100000, .i1⟩) main_v12).ofBuf (Val := Elt Ideal) v = v := rfl
theorem of_v13 (v : FVec Ideal S100000 .f32) : (TRef.of (sig := sig) (T := ⟨S100000, .f32⟩) main_v13).ofBuf (Val := Elt Ideal) v = v := rfl
theorem to_c1 (v : FVec Ideal S100000 .f32) : (TRef.of (sig := sig) (T := ⟨S100000, .f32⟩) main_call0_v1).toBuf (Val := Elt Ideal) v = v := rfl
theorem of_c1 (v : FVec Ideal S100000 .f32) : (TRef.of (sig := sig) (T := ⟨S100000, .f32⟩) main_call0_v1).ofBuf (Val := Elt Ideal) v = v := rfl
theorem to_c0 (v : FVec Ideal S_ .f32) : (TRef.of (sig := sig) (T := ⟨S_, .f32⟩) main_call0_v0).toBuf (Val := Elt Ideal) v = v := rfl
theorem of_c0 (v : FVec Ideal S_ .f32) : (TRef.of (sig := sig) (T := ⟨S_, .f32⟩) main_call0_v0).ofBuf (Val := Elt Ideal) v = v := rfl
theorem of_cst2 (v : FVec Ideal S_ .f32) : (TRef.of (sig := sig) (T := ⟨S_, .f32⟩) main_cst_2).ofBuf (Val := Elt Ideal) v = v := rfl

/-! ## The second stretch: where the degree is positive its inverse square root, zero elsewhere -/

theorem W2_v14 : W2 m ρ c (Proc.devRef .tc main_v14) = Glue.dinv (m ((c.tc : Thread nD τ).loc main_arg1)) := by
  have h12 := W1_v12 m ρ c
  have h13 := W1_v13 m ρ c
  have hc2 := W1_cst2 m ρ c
  show StableHlo.after hostOps0_1 (W1 m ρ c) (Proc.devRef .tc main_v14) = _
  generalize W1 m ρ c = Wv at h12 h13 hc2 ⊢
  dsimp only [hostOps0_1]
  after_results
  rw [h12, h13, hc2, to_v14, of_v12, of_v13, of_cst2, to_c0, of_c0, to_c1, of_c1]
  rfl

theorem W2_keep_v5 : W2 m ρ c (Proc.devRef .tc main_v5) = W1 m ρ c (Proc.devRef .tc main_v5) := by
  show StableHlo.after hostOps0_1 (W1 m ρ c) (Proc.devRef .tc main_v5) = _
  generalize W1 m ρ c = Wv
  dsimp only [hostOps0_1]
  after_results

theorem W2_keep_v6 : W2 m ρ c (Proc.devRef .tc main_v6) = W1 m ρ c (Proc.devRef .tc main_v6) := by
  show StableHlo.after hostOps0_1 (W1 m ρ c) (Proc.devRef .tc main_v6) = _
  generalize W1 m ρ c = Wv
  dsimp only [hostOps0_1]
  after_results

theorem W2_keep_arg0 : W2 m ρ c (Proc.devRef .tc main_arg0) = W1 m ρ c (Proc.devRef .tc main_arg0) := by
  show StableHlo.after hostOps0_1 (W1 m ρ c) (Proc.devRef .tc main_arg0) = _
  generalize W1 m ρ c = Wv
  dsimp only [hostOps0_1]
  after_results

theorem W2_keep_arg2 : W2 m ρ c (Proc.devRef .tc main_arg2) = W1 m ρ c (Proc.devRef .tc main_arg2) := by
  show StableHlo.after hostOps0_1 (W1 m ρ c) (Proc.devRef .tc main_arg2) = _
  generalize W1 m ρ c = Wv
  dsimp only [hostOps0_1]
  after_results

theorem W2_keep_arg3 : W2 m ρ c (Proc.devRef .tc main_arg3) = W1 m ρ c (Proc.devRef .tc main_arg3) := by
  show StableHlo.after hostOps0_1 (W1 m ρ c) (Proc.devRef .tc main_arg3) = _
  generalize W1 m ρ c = Wv
  dsimp only [hostOps0_1]
  after_results

theorem W2_keep_arg4 : W2 m ρ c (Proc.devRef .tc main_arg4) = W1 m ρ c (Proc.devRef .tc main_arg4) := by
  show StableHlo.after hostOps0_1 (W1 m ρ c) (Proc.devRef .tc main_arg4) = _
  generalize W1 m ρ c = Wv
  dsimp only [hostOps0_1]
  after_results

theorem W2_keep_arg5 : W2 m ρ c (Proc.devRef .tc main_arg5) = W1 m ρ c (Proc.devRef .tc main_arg5) := by
  show StableHlo.after hostOps0_1 (W1 m ρ c) (Proc.devRef .tc main_arg5) = _
  generalize W1 m ρ c = Wv
  dsimp only [hostOps0_1]
  after_results

theorem W2_v5 : W2 m ρ c (Proc.devRef .tc main_v5) = Glue.srcIds (m ((c.tc : Thread nD τ).loc main_arg1)) := (W2_keep_v5 m ρ c).trans (W1_v5 m ρ c)
theorem W2_v6 : W2 m ρ c (Proc.devRef .tc main_v6) = Glue.dstIds (m ((c.tc : Thread nD τ).loc main_arg1)) := (W2_keep_v6 m ρ c).trans (W1_v6 m ρ c)

/-! ## The third stretch: the edge weights -/

set_option maxHeartbeats 1000000 in
theorem W3_v29 : W3 m ρ c (Proc.devRef .tc main_v29) = Glue.norm (m ((c.tc : Thread nD τ).loc main_arg1)) := by
  have h14 := W2_v14 m ρ c
  have h5 := W2_v5 m ρ c
  have h6 := W2_v6 m ρ c
  show StableHlo.after hostOps0_2 (W2 m ρ c) (Proc.devRef .tc main_v29) = _
  generalize W2 m ρ c = Wv at h14 h5 h6 ⊢
  dsimp only [hostOps0_2]
  after_results
  rw [h14, h5, h6]
  rfl

theorem W3_keep_v5 : W3 m ρ c (Proc.devRef .tc main_v5) = W2 m ρ c (Proc.devRef .tc main_v5) := by
  show StableHlo.after hostOps0_2 (W2 m ρ c) (Proc.devRef .tc main_v5) = _
  generalize W2 m ρ c = Wv
  dsimp only [hostOps0_2]
  after_results

theorem W3_keep_v6 : W3 m ρ c (Proc.devRef .tc main_v6) = W2 m ρ c (Proc.devRef .tc main_v6) := by
  show StableHlo.after hostOps0_2 (W2 m ρ c) (Proc.devRef .tc main_v6) = _
  generalize W2 m ρ c = Wv
  dsimp only [hostOps0_2]
  after_results

theorem W3_keep_arg0 : W3 m ρ c (Proc.devRef .tc main_arg0) = W2 m ρ c (Proc.devRef .tc main_arg0) := by
  show StableHlo.after hostOps0_2 (W2 m ρ c) (Proc.devRef .tc main_arg0) = _
  generalize W2 m ρ c = Wv
  dsimp only [hostOps0_2]
  after_results

theorem W3_keep_arg2 : W3 m ρ c (Proc.devRef .tc main_arg2) = W2 m ρ c (Proc.devRef .tc main_arg2) := by
  show StableHlo.after hostOps0_2 (W2 m ρ c) (Proc.devRef .tc main_arg2) = _
  generalize W2 m ρ c = Wv
  dsimp only [hostOps0_2]
  after_results

theorem W3_keep_arg3 : W3 m ρ c (Proc.devRef .tc main_arg3) = W2 m ρ c (Proc.devRef .tc main_arg3) := by
  show StableHlo.after hostOps0_2 (W2 m ρ c) (Proc.devRef .tc main_arg3) = _
  generalize W2 m ρ c = Wv
  dsimp only [hostOps0_2]
  after_results

theorem W3_keep_arg4 : W3 m ρ c (Proc.devRef .tc main_arg4) = W2 m ρ c (Proc.devRef .tc main_arg4) := by
  show StableHlo.after hostOps0_2 (W2 m ρ c) (Proc.devRef .tc main_arg4) = _
  generalize W2 m ρ c = Wv
  dsimp only [hostOps0_2]
  after_results

theorem W3_keep_arg5 : W3 m ρ c (Proc.devRef .tc main_arg5) = W2 m ρ c (Proc.devRef .tc main_arg5) := by
  show StableHlo.after hostOps0_2 (W2 m ρ c) (Proc.devRef .tc main_arg5) = _
  generalize W2 m ρ c = Wv
  dsimp only [hostOps0_2]
  after_results

theorem W3_v5 : W3 m ρ c (Proc.devRef .tc main_v5) = Glue.srcIds (m ((c.tc : Thread nD τ).loc main_arg1)) := (W3_keep_v5 m ρ c).trans (W2_v5 m ρ c)
theorem W3_v6 : W3 m ρ c (Proc.devRef .tc main_v6) = Glue.dstIds (m ((c.tc : Thread nD τ).loc main_arg1)) := (W3_keep_v6 m ρ c).trans (W2_v6 m ρ c)
theorem W3_arg0 : W3 m ρ c (Proc.devRef .tc main_arg0) = (m ((c.tc : Thread nD τ).loc main_arg0)) := (W3_keep_arg0 m ρ c).trans ((W2_keep_arg0 m ρ c).trans (W1_arg0 m ρ c))
theorem W3_arg2 : W3 m ρ c (Proc.devRef .tc main_arg2) = (m ((c.tc : Thread nD τ).loc main_arg2)) := (W3_keep_arg2 m ρ c).trans ((W2_keep_arg2 m ρ c).trans (W1_arg2 m ρ c))
theorem W3_arg3 : W3 m ρ c (Proc.devRef .tc main_arg3) = (m ((c.tc : Thread nD τ).loc main_arg3)) := (W3_keep_arg3 m ρ c).trans ((W2_keep_arg3 m ρ c).trans (W1_arg3 m ρ c))
theorem W3_arg4 : W3 m ρ c (Proc.devRef .tc main_arg4) = (m ((c.tc : Thread nD τ).loc main_arg4)) := (W3_keep_arg4 m ρ c).trans ((W2_keep_arg4 m ρ c).trans (W1_arg4 m ρ c))
theorem W3_arg5 : W3 m ρ c (Proc.devRef .tc main_arg5) = (m ((c.tc : Thread nD τ).loc main_arg5)) := (W3_keep_arg5 m ρ c).trans ((W2_keep_arg5 m ρ c).trans (W1_arg5 m ρ c))

/-! ## The first stage keeps every buffer but its result array -/

theorem W4_v5 : W4 m ρ c (Proc.devRef .tc main_v5) = Glue.srcIds (m ((c.tc : Thread nD τ).loc main_arg1)) := (W4_of_ne m ρ c main_v5 (by decide)).trans (W3_v5 m ρ c)
theorem W4_v6 : W4 m ρ c (Proc.devRef .tc main_v6) = Glue.dstIds (m ((c.tc : Thread nD τ).loc main_arg1)) := (W4_of_ne m ρ c main_v6 (by decide)).trans (W3_v6 m ρ c)
theorem W4_v29 : W4 m ρ c (Proc.devRef .tc main_v29) = Glue.norm (m ((c.tc : Thread nD τ).loc main_arg1)) := (W4_of_ne m ρ c main_v29 (by decide)).trans (W3_v29 m ρ c)
theorem W4_arg3 : W4 m ρ c (Proc.devRef .tc main_arg3) = (m ((c.tc : Thread nD τ).loc main_arg3)) := (W4_of_ne m ρ c main_arg3 (by decide)).trans (W3_arg3 m ρ c)
theorem W4_arg4 : W4 m ρ c (Proc.devRef .tc main_arg4) = (m ((c.tc : Thread nD τ).loc main_arg4)) := (W4_of_ne m ρ c main_arg4 (by decide)).trans (W3_arg4 m ρ c)
theorem W4_arg5 : W4 m ρ c (Proc.devRef .tc main_arg5) = (m ((c.tc : Thread nD τ).loc main_arg5)) := (W4_of_ne m ρ c main_arg5 (by decide)).trans (W3_arg5 m ρ c)

/-! ## The stretch between the first two stages -/

theorem W5_v5 : W5 m ρ c (Proc.devRef .tc main_v5) = W4 m ρ c (Proc.devRef .tc main_v5) := by
  show StableHlo.after hostOps1 (W4 m ρ c) (Proc.devRef .tc main_v5) = _
  dsimp only [hostOps1]
  after_results

theorem W5_v6 : W5 m ρ c (Proc.devRef .tc main_v6) = W4 m ρ c (Proc.devRef .tc main_v6) := by
  show StableHlo.after hostOps1 (W4 m ρ c) (Proc.devRef .tc main_v6) = _
  dsimp only [hostOps1]
  after_results

theorem W5_v29 : W5 m ρ c (Proc.devRef .tc main_v29) = W4 m ρ c (Proc.devRef .tc main_v29) := by
  show StableHlo.after hostOps1 (W4 m ρ c) (Proc.devRef .tc main_v29) = _
  dsimp only [hostOps1]
  after_results

theorem W5_arg4 : W5 m ρ c (Proc.devRef .tc main_arg4) = W4 m ρ c (Proc.devRef .tc main_arg4) := by
  show StableHlo.after hostOps1 (W4 m ρ c) (Proc.devRef .tc main_arg4) = _
  dsimp only [hostOps1]
  after_results

theorem W5_arg5 : W5 m ρ c (Proc.devRef .tc main_arg5) = W4 m ρ c (Proc.devRef .tc main_arg5) := by
  show StableHlo.after hostOps1 (W4 m ρ c) (Proc.devRef .tc main_arg5) = _
  dsimp only [hostOps1]
  after_results

set_option maxHeartbeats 2000000 in
/-- The first propagation step, of whatever the first stage left. -/
theorem W5_v43 (H : FVec Ideal S100000x128 .f32) (h : W4 m ρ c (Proc.devRef .tc main_v30) = H) :
    W5 m ρ c (Proc.devRef .tc main_v43) = Glue.agg128 (m ((c.tc : Thread nD τ).loc main_arg1)) (Glue.norm (m ((c.tc : Thread nD τ).loc main_arg1))) H := by
  show StableHlo.after hostOps1 (W4 m ρ c) (Proc.devRef .tc main_v43) = _
  dsimp only [hostOps1]
  after_results
  rw [W4_v5, W4_v6, W4_v29, h]
  rfl

/-- The first bias as a one-row matrix. -/
theorem W5_v44 : W5 m ρ c (Proc.devRef .tc main_v44) = shapeCast S1x128 (m ((c.tc : Thread nD τ).loc main_arg3)) Facts₀.shapeCasts_S128_S1x128 := by
  show StableHlo.after hostOps1 (W4 m ρ c) (Proc.devRef .tc main_v44) = _
  dsimp only [hostOps1]
  after_results
  rw [W4_arg3]
  rfl

/-! ## The stretch before the last stage -/

theorem W8_v5 : W8 m ρ c (Proc.devRef .tc main_v5) = W7 m ρ c (Proc.devRef .tc main_v5) := by
  show StableHlo.after hostOps3 (W7 m ρ c) (Proc.devRef .tc main_v5) = _
  dsimp only [hostOps3]
  after_results

theorem W8_v6 : W8 m ρ c (Proc.devRef .tc main_v6) = W7 m ρ c (Proc.devRef .tc main_v6) := by
  show StableHlo.after hostOps3 (W7 m ρ c) (Proc.devRef .tc main_v6) = _
  dsimp only [hostOps3]
  after_results

theorem W8_v29 : W8 m ρ c (Proc.devRef .tc main_v29) = W7 m ρ c (Proc.devRef .tc main_v29) := by
  show StableHlo.after hostOps3 (W7 m ρ c) (Proc.devRef .tc main_v29) = _
  dsimp only [hostOps3]
  after_results

set_option maxHeartbeats 2000000 in
/-- The second propagation step, of whatever the third stage left. -/
theorem W8_v59 (H : FVec Ideal S100000x64 .f32) (h : W7 m ρ c (Proc.devRef .tc main_v46) = H)
    (h5 : W7 m ρ c (Proc.devRef .tc main_v5) = Glue.srcIds (m ((c.tc : Thread nD τ).loc main_arg1))) (h6 : W7 m ρ c (Proc.devRef .tc main_v6) = Glue.dstIds (m ((c.tc : Thread nD τ).loc main_arg1)))
    (h29 : W7 m ρ c (Proc.devRef .tc main_v29) = Glue.norm (m ((c.tc : Thread nD τ).loc main_arg1))) :
    W8 m ρ c (Proc.devRef .tc main_v59) = Glue.agg64 (m ((c.tc : Thread nD τ).loc main_arg1)) (Glue.norm (m ((c.tc : Thread nD τ).loc main_arg1))) H := by
  show StableHlo.after hostOps3 (W7 m ρ c) (Proc.devRef .tc main_v59) = _
  dsimp only [hostOps3]
  after_results
  rw [h5, h6, h29, h]
  rfl

/-- The second bias as a one-row matrix. -/
theorem W8_v60 (h : W7 m ρ c (Proc.devRef .tc main_arg5) = (m ((c.tc : Thread nD τ).loc main_arg5))) :
    W8 m ρ c (Proc.devRef .tc main_v60) = shapeCast S1x64 (m ((c.tc : Thread nD τ).loc main_arg5)) Facts₀.shapeCasts_S64_S1x64 := by
  show StableHlo.after hostOps3 (W7 m ρ c) (Proc.devRef .tc main_v60) = _
  dsimp only [hostOps3]
  after_results
  rw [h]
  rfl

/-! ## The whole fold -/

/-- A buffer that no stage after the first writes and that the stretch between the first two stages keeps, at the third
    stage's exit. -/
theorem W7_of_W4 (b : Ref sig .tc) (h2 : ∀ w, Pipeline.arrRef spec2 w ≠ b) (h1 : ∀ w, Pipeline.arrRef spec1 w ≠ b)
    (hk : W5 m ρ c (Proc.devRef .tc b) = W4 m ρ c (Proc.devRef .tc b)) :
    W7 m ρ c (Proc.devRef .tc b) = W4 m ρ c (Proc.devRef .tc b) :=
  (W7_of_ne m ρ c b h2).trans ((W6_of_ne m ρ c b h1).trans hk)

/-- THE RESULT ARRAY at the last boundary is the network of the six arguments, given what each stage's result array
    holds after the stage as a function of the stage's two input arrays at its entry. -/
theorem W9_v61
    (f0 : ∀ (V : (c : Dev nD) → (b : Ref sig .tc) → Buf (Elt Ideal) ((c : Thread nD τ).loc b)) (c : Dev nD),
      (dat0 (F := Ideal) V c).arrAt 2 cfg0.N = Cert.Spec.matProd 100000 768 128 (V c main_arg0) (V c main_arg2))
    (f1 : ∀ (V : (c : Dev nD) → (b : Ref sig .tc) → Buf (Elt Ideal) ((c : Thread nD τ).loc b)) (c : Dev nD),
      (dat1 (F := Ideal) V c).arrAt 2 cfg1.N = Cert.Spec.addRowPos 100000 128 (V c main_v43) (V c main_v44))
    (f2 : ∀ (V : (c : Dev nD) → (b : Ref sig .tc) → Buf (Elt Ideal) ((c : Thread nD τ).loc b)) (c : Dev nD),
      (dat2 (F := Ideal) V c).arrAt 2 cfg2.N = Cert.Spec.matProd 100000 128 64 (V c main_v45) (V c main_arg4))
    (f3 : ∀ (V : (c : Dev nD) → (b : Ref sig .tc) → Buf (Elt Ideal) ((c : Thread nD τ).loc b)) (c : Dev nD),
      (dat3 (F := Ideal) V c).arrAt 2 cfg3.N = Cert.Spec.addRow 100000 64 (V c main_v59) (V c main_v60)) :
    W9 m ρ c (Proc.devRef .tc main_v61) = Glue.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  -- the first stage's result: the product of the first two arguments
  have e30 : W4 m ρ c (Proc.devRef .tc main_v30) = Cert.Spec.matProd 100000 768 128 (m ((c.tc : Thread nD τ).loc main_arg0)) (m ((c.tc : Thread nD τ).loc main_arg2)) := by
    refine (W4_arr m ρ c 2).trans ((f0 (V3 m ρ) c).trans ?_)
    show Cert.Spec.matProd 100000 768 128 (W3 m ρ c (Proc.devRef .tc main_arg0)) (W3 m ρ c (Proc.devRef .tc main_arg2)) = _
    rw [W3_arg0, W3_arg2]
  -- the second stage's result
  have e45 : W6 m ρ c (Proc.devRef .tc main_v45) = Cert.Spec.addRowPos 100000 128 (Glue.agg128 (m ((c.tc : Thread nD τ).loc main_arg1)) (Glue.norm (m ((c.tc : Thread nD τ).loc main_arg1))) (Cert.Spec.matProd 100000 768 128 (m ((c.tc : Thread nD τ).loc main_arg0)) (m ((c.tc : Thread nD τ).loc main_arg2)))) (shapeCast S1x128 (m ((c.tc : Thread nD τ).loc main_arg3)) Facts₀.shapeCasts_S128_S1x128) := by
    refine (W6_arr m ρ c 2).trans ((f1 (V5 m ρ) c).trans ?_)
    show Cert.Spec.addRowPos 100000 128 (W5 m ρ c (Proc.devRef .tc main_v43)) (W5 m ρ c (Proc.devRef .tc main_v44)) = _
    rw [W5_v43 m ρ c _ e30, W5_v44]
  -- the third stage's result
  have e46 : W7 m ρ c (Proc.devRef .tc main_v46) = Cert.Spec.matProd 100000 128 64 (Cert.Spec.addRowPos 100000 128 (Glue.agg128 (m ((c.tc : Thread nD τ).loc main_arg1)) (Glue.norm (m ((c.tc : Thread nD τ).loc main_arg1))) (Cert.Spec.matProd 100000 768 128 (m ((c.tc : Thread nD τ).loc main_arg0)) (m ((c.tc : Thread nD τ).loc main_arg2)))) (shapeCast S1x128 (m ((c.tc : Thread nD τ).loc main_arg3)) Facts₀.shapeCasts_S128_S1x128)) (m ((c.tc : Thread nD τ).loc main_arg4)) := by
    refine (W7_arr m ρ c 2).trans ((f2 (V6 m ρ) c).trans ?_)
    show Cert.Spec.matProd 100000 128 64 (W6 m ρ c (Proc.devRef .tc main_v45)) (W6 m ρ c (Proc.devRef .tc main_arg4)) = _
    rw [e45, W6_of_ne m ρ c main_arg4 (by decide), W5_arg4, W4_arg4]
  -- what the last stretch reads besides it
  have k5 : W7 m ρ c (Proc.devRef .tc main_v5) = Glue.srcIds (m ((c.tc : Thread nD τ).loc main_arg1)) := (W7_of_W4 m ρ c main_v5 (by decide) (by decide) (W5_v5 m ρ c)).trans (W4_v5 m ρ c)
  have k6 : W7 m ρ c (Proc.devRef .tc main_v6) = Glue.dstIds (m ((c.tc : Thread nD τ).loc main_arg1)) := (W7_of_W4 m ρ c main_v6 (by decide) (by decide) (W5_v6 m ρ c)).trans (W4_v6 m ρ c)
  have k29 : W7 m ρ c (Proc.devRef .tc main_v29) = Glue.norm (m ((c.tc : Thread nD τ).loc main_arg1)) := (W7_of_W4 m ρ c main_v29 (by decide) (by decide) (W5_v29 m ρ c)).trans (W4_v29 m ρ c)
  have ka5 : W7 m ρ c (Proc.devRef .tc main_arg5) = (m ((c.tc : Thread nD τ).loc main_arg5)) := (W7_of_W4 m ρ c main_arg5 (by decide) (by decide) (W5_arg5 m ρ c)).trans (W4_arg5 m ρ c)
  -- the last stage's result
  refine (W9_arr m ρ c 2).trans ((f3 (V8 m ρ) c).trans ?_)
  show Cert.Spec.addRow 100000 64 (W8 m ρ c (Proc.devRef .tc main_v59)) (W8 m ρ c (Proc.devRef .tc main_v60)) = _
  rw [W8_v59 m ρ c _ e46 k5 k6 k29, W8_v60 m ρ c ka5]
  rfl

end Cert.KernelIdeal.Chain

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.Region0.lean ====
/-
  The first tiled stage: the [100000, 768] array times the [768, 128] matrix, 2000 rows at a time.

  A grid point t (of 50) holds rows 2000·t … 2000·t + 1999 of the left array, the whole right matrix, and writes rows
  2000·t … 2000·t + 1999 of the result. Entry (p, q) of what it writes is the sum over k < 768 of
  (left block)(p, k) · (right)(k, q), the rounding to the narrower format being the identity on the extended reals;
  that is entry (2000·t + p, q) of the whole product, which depends on row 2000·t + p of the left array only. Every
  row r lies in the block of point r / 2000, so after the 50 points the result array is the whole product.
-/
import proofs.«102344_j45114336477305_1_alg».proof.Proof.Gen.KernelIdeal.Frame
import proofs.«102344_j45114336477305_1_alg».proof.Proof.Spec
import proofs.«102344_j45114336477305_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Stage

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's accesses start at the origin of their buffers. -/
theorem origin0 : (![0, 0] : Fin 2 → Nat) = fun _ => 0 := funext fun a => by fin_cases a <;> rfl

/-- The block indices over the grid: the left array's and the result's blocks move down with the point, the right
    matrix stays. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's value at (p, q): the sum over k of left(p, k) · right(k, q). -/
theorem pay0_apply (x0 : Vec Ideal S2000x768 .f32) (x1 : Vec Ideal S768x128 .f32) (p : Fin 2000) (q : Fin 128) :
    k0_pay1 (F := Ideal) x0 x1 (ix2 p q) = ∑ k : Fin 768, x0 (ix2 p k) * x1 (ix2 k q) := by
  unfold k0_pay1
  exact Cert.LibPlainDot.matmul_plain 2000 768 128 none (truncf .bf16 x0 bitsLt_bf16_f32) (truncf .bf16 x1 bitsLt_bf16_f32) (ix2 p q)

/-- The left block at point t is rows 2000·t … of the left array. -/
theorem left0_apply (c : Dev nD) (t : Fin cfg0.N) (x : S2000x768.Idx) (i : S100000x768.Idx)
    (h0 : (i 0).val = t.val * 2000 + (x 0).val) (h1 : (i 1).val = (x 1).val) :
    (iblk0 V c 0 t : Vec Ideal S2000x768 .f32) x = (V c main_arg0 : S100000x768.Idx → Elt Ideal .f32) i := by
  obtain ⟨e0, e1, -⟩ := index_facts0 t
  unfold iblk0
  rw [View.read_apply]
  show V c main_arg0 _ = V c main_arg0 _
  congr 1
  funext a
  apply Fin.ext
  match a with
  | ⟨0, _⟩ => show win0_0.index t (0 : Fin 2) * 2000 + 1 * (x 0).val = (i 0).val; rw [e0, h0]; omega
  | ⟨1, _⟩ => show win0_0.index t (1 : Fin 2) * 768 + 1 * (x 1).val = (i 1).val; rw [e1, h1]; omega

/-- The right block at every point is the whole right matrix. -/
theorem right0_apply (c : Dev nD) (t : Fin cfg0.N) (x : S768x128.Idx) (i : S768x128.Idx)
    (h0 : (i 0).val = (x 0).val) (h1 : (i 1).val = (x 1).val) :
    (iblk0 V c 1 t : Vec Ideal S768x128 .f32) x = (V c main_arg2 : S768x128.Idx → Elt Ideal .f32) i := by
  obtain ⟨-, -, e2, e3, -⟩ := index_facts0 t
  unfold iblk0
  rw [View.read_apply]
  show V c main_arg2 _ = V c main_arg2 _
  congr 1
  funext a
  apply Fin.ext
  match a with
  | ⟨0, _⟩ => show win0_1.index t (0 : Fin 2) * 768 + 1 * (x 0).val = (i 0).val; rw [e2, h0]; omega
  | ⟨1, _⟩ => show win0_1.index t (1 : Fin 2) * 128 + 1 * (x 1).val = (i 1).val; rw [e3, h1]; omega

/-- What point t writes back is block t of the whole product. -/
theorem flushed0_eq (c : Dev nD) (t : Fin cfg0.N) :
    (dat0 (F := Ideal) V c).flushed 2 t
      = ((cfg0.win 2).blk t).view.read (Elt Ideal) (Cert.Spec.matProd 100000 768 128 (V c main_arg0) (V c main_arg2)) := by
  show (cfg0.win 2).cut (grid0.coords t) ((dat0 V c).after 2 t) = _
  rw [after0_2]
  unfold out0_2
  rw [View.canon_unit_zero origin0]
  simp only [View.ld_unit_zero (S := S2000x768) origin0, View.ld_unit_zero (S := S768x128) origin0]
  obtain ⟨-, -, -, -, e4, e5⟩ := index_facts0 t
  funext j
  show k0_pay1 (F := Ideal) (iblk0 V c 0 t) (iblk0 V c 1 t) j
    = Cert.Spec.matProd 100000 768 128 (V c main_arg0) (V c main_arg2) (((cfg0.win 2).blk t).view.emb j)
  obtain ⟨p, q, rfl⟩ : ∃ (p : Fin 2000) (q : Fin 128), j = ix2 p q := ⟨j 0, j 1, eq_ix2 j⟩
  refine (pay0_apply (iblk0 V c 0 t) (iblk0 V c 1 t) p q).trans ?_
  rw [Cert.Spec.matProd_apply]
  refine Finset.sum_congr rfl fun k _ => ?_
  refine congr (congrArg HMul.hMul (left0_apply V c t _ _ ?_ rfl)) (right0_apply V c t _ _ rfl ?_)
  · show win0_2.index t (0 : Fin 2) * 2000 + 1 * p.val = t.val * 2000 + p.val
    rw [e4]; omega
  · show win0_2.index t (1 : Fin 2) * 128 + 1 * q.val = q.val
    rw [e5]; omega

/-- A row and column lie in point t's block iff each lies in the block's range on its axis. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Row r lies in the block of point r / 2000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨-, -, -, -, e4, e5⟩ := index_facts0 t
  have ht : t.val = (i 0).val / 2000 := rfl
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; rw [e4, ht]; omega
  | ⟨1, _⟩ => show win0_2.index t (1 : Fin 2) * 128 ≤ (i 1).val ∧ (i 1).val < win0_2.index t (1 : Fin 2) * 128 + 128; rw [e5]; omega

/-- After its 50 points the stage's result array is the whole product of the two arrays it found. -/
theorem final0 (c : Dev nD) :
    (dat0 (F := Ideal) V c).arrAt 2 cfg0.N = Cert.Spec.matProd 100000 768 128 (V c main_arg0) (V c main_arg2) :=
  (dat0 (F := Ideal) V c).arrAt_eq_of_cover 2 (Cert.Spec.matProd 100000 768 128 (V c main_arg0) (V c main_arg2))
    (fun t _ => flushed0_eq V c t) cover0

end Cert.KernelIdeal.Stage

end
-- ==== Proof.Region1.lean ====
/-
  The second tiled stage: a one-row matrix added to every row of a [100000, 128] array, then the positive part,
  2000 rows at a time.

  A grid point t (of 50) holds rows 2000·t … 2000·t + 1999 of the array and the whole row, and writes the same rows of the
  result. Entry (p, q) of what it writes is max (block(p, q) + row(0, q)) 0, the row repeated down the block; that
  is entry (2000·t + p, q) of the whole array's image, which depends on that one entry and on the row only. Every row r
  lies in the block of point r / 2000, so after the 50 points the result array is the image of the whole array.
-/
import proofs.«102344_j45114336477305_1_alg».proof.Proof.Gen.KernelIdeal.Frame
import proofs.«102344_j45114336477305_1_alg».proof.Proof.Spec
import proofs.«102344_j45114336477305_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Stage

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's accesses start at the origin of their buffers. -/
theorem origin1 : (![0, 0] : Fin 2 → Nat) = fun _ => 0 := funext fun a => by fin_cases a <;> rfl

/-- The block indices over the grid: the array's and the result's blocks move down with the point, the row stays. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's value at (p, q): the block's entry plus the row's entry in column q, then the positive part. -/
theorem pay1_apply (x0 : Vec Ideal S2000x128 .f32) (x1 : Vec Ideal S1x128 .f32) (p : Fin 2000) (q : Fin 128) :
    k1_pay1 (F := Ideal) x0 x1 (ix2 p q) = max (x0 (ix2 p q) + x1 (ix2 (0 : Fin 1) q)) (Ideal.ofBits .f32 0x00000000#32) := by
  unfold k1_pay1
  rw [shapeCast_self, shapeCast_self]
  show max (x0 (ix2 p q) + broadcastTo S2000x128 x1 broadcasts_S1x128_S2000x128 (ix2 p q)) (Ideal.ofBits .f32 0x00000000#32) = _
  rw [broadcastTo_apply x1 broadcasts_S1x128_S2000x128 (ix2 p q) (ix2 (0 : Fin 1) q) (fun a => by
    match a with
    | ⟨0, _⟩ => rfl
    | ⟨1, _⟩ => rfl)]

/-- The array's block at point t is rows 2000·t … of the array. -/
theorem left1_apply (c : Dev nD) (t : Fin cfg1.N) (x : S2000x128.Idx) (i : S100000x128.Idx)
    (h0 : (i 0).val = t.val * 2000 + (x 0).val) (h1 : (i 1).val = (x 1).val) :
    (iblk1 V c 0 t : Vec Ideal S2000x128 .f32) x = (V c main_v43 : S100000x128.Idx → Elt Ideal .f32) i := by
  obtain ⟨e0, e1, -⟩ := index_facts1 t
  unfold iblk1
  rw [View.read_apply]
  show V c main_v43 _ = V c main_v43 _
  congr 1
  funext a
  apply Fin.ext
  match a with
  | ⟨0, _⟩ => show win1_0.index t (0 : Fin 2) * 2000 + 1 * (x 0).val = (i 0).val; rw [e0, h0]; omega
  | ⟨1, _⟩ => show win1_0.index t (1 : Fin 2) * 128 + 1 * (x 1).val = (i 1).val; rw [e1, h1]; omega

/-- The row's block at every point is the whole row. -/
theorem right1_apply (c : Dev nD) (t : Fin cfg1.N) (x : S1x128.Idx) (i : S1x128.Idx)
    (h0 : (i 0).val = (x 0).val) (h1 : (i 1).val = (x 1).val) :
    (iblk1 V c 1 t : Vec Ideal S1x128 .f32) x = (V c main_v44 : S1x128.Idx → Elt Ideal .f32) i := by
  obtain ⟨-, -, e2, e3, -⟩ := index_facts1 t
  unfold iblk1
  rw [View.read_apply]
  show V c main_v44 _ = V c main_v44 _
  congr 1
  funext a
  apply Fin.ext
  match a with
  | ⟨0, _⟩ => show win1_1.index t (0 : Fin 2) * 1 + 1 * (x 0).val = (i 0).val; rw [e2, h0]; omega
  | ⟨1, _⟩ => show win1_1.index t (1 : Fin 2) * 128 + 1 * (x 1).val = (i 1).val; rw [e3, h1]; omega

/-- What point t writes back is block t of the whole array's image. -/
theorem flushed1_eq (c : Dev nD) (t : Fin cfg1.N) :
    (dat1 (F := Ideal) V c).flushed 2 t
      = ((cfg1.win 2).blk t).view.read (Elt Ideal) (Cert.Spec.addRowPos 100000 128 (V c main_v43) (V c main_v44)) := by
  show (cfg1.win 2).cut (grid1.coords t) ((dat1 V c).after 2 t) = _
  rw [after1_2]
  unfold out1_2
  rw [View.canon_unit_zero origin1]
  simp only [View.ld_unit_zero (S := S2000x128) origin1, View.ld_unit_zero (S := S1x128) origin1]
  obtain ⟨-, -, -, -, e4, e5⟩ := index_facts1 t
  funext j
  show k1_pay1 (F := Ideal) (iblk1 V c 0 t) (iblk1 V c 1 t) j
    = Cert.Spec.addRowPos 100000 128 (V c main_v43) (V c main_v44) (((cfg1.win 2).blk t).view.emb j)
  obtain ⟨p, q, rfl⟩ : ∃ (p : Fin 2000) (q : Fin 128), j = ix2 p q := ⟨j 0, j 1, eq_ix2 j⟩
  refine (pay1_apply (iblk1 V c 0 t) (iblk1 V c 1 t) p q).trans ?_
  rw [Cert.Spec.addRowPos_apply]
  have hl := left1_apply V c t (ix2 p q) (((cfg1.win 2).blk t).view.emb (ix2 p q))
    (by show win1_2.index t (0 : Fin 2) * 2000 + 1 * p.val = t.val * 2000 + p.val; rw [e4]; omega)
    (by show win1_2.index t (1 : Fin 2) * 128 + 1 * q.val = q.val; rw [e5]; omega)
  have hr := right1_apply V c t (ix2 (0 : Fin 1) q) (ix2 (0 : Fin 1) ((((cfg1.win 2).blk t).view.emb (ix2 p q)) 1)) rfl
    (by show win1_2.index t (1 : Fin 2) * 128 + 1 * q.val = q.val; rw [e5]; omega)
  rw [hl, hr]

/-- A row and column lie in point t's block iff each lies in the block's range on its axis. -/
theorem mem_blk1 (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v45).slice (win1_2.rect t)).set ↔ _
  rw [View.set_slice_whole, Rect.mem_set_unit]
  exact Iff.rfl

/-- Row r lies in the block of point r / 2000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  obtain ⟨-, -, -, -, e4, e5⟩ := index_facts1 t
  have ht : t.val = (i 0).val / 2000 := rfl
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; rw [e4, ht]; omega
  | ⟨1, _⟩ => show win1_2.index t (1 : Fin 2) * 128 ≤ (i 1).val ∧ (i 1).val < win1_2.index t (1 : Fin 2) * 128 + 128; rw [e5]; omega

/-- After its 50 points the stage's result array is the image of the whole array it found. -/
theorem final1 (c : Dev nD) :
    (dat1 (F := Ideal) V c).arrAt 2 cfg1.N = Cert.Spec.addRowPos 100000 128 (V c main_v43) (V c main_v44) :=
  (dat1 (F := Ideal) V c).arrAt_eq_of_cover 2 (Cert.Spec.addRowPos 100000 128 (V c main_v43) (V c main_v44))
    (fun t _ => flushed1_eq V c t) cover1

end Cert.KernelIdeal.Stage

end
-- ==== Proof.Region2.lean ====
/-
  The third tiled stage: the [100000, 128] array times the [128, 64] matrix, 2000 rows at a time.

  A grid point t (of 50) holds rows 2000·t … 2000·t + 1999 of the left array, the whole right matrix, and writes rows
  2000·t … 2000·t + 1999 of the result. Entry (p, q) of what it writes is the sum over k < 128 of
  (left block)(p, k) · (right)(k, q), the rounding to the narrower format being the identity on the extended reals;
  that is entry (2000·t + p, q) of the whole product, which depends on row 2000·t + p of the left array only. Every
  row r lies in the block of point r / 2000, so after the 50 points the result array is the whole product.
-/
import proofs.«102344_j45114336477305_1_alg».proof.Proof.Gen.KernelIdeal.Frame
import proofs.«102344_j45114336477305_1_alg».proof.Proof.Spec
import proofs.«102344_j45114336477305_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Stage

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's accesses start at the origin of their buffers. -/
theorem origin2 : (![0, 0] : Fin 2 → Nat) = fun _ => 0 := funext fun a => by fin_cases a <;> rfl

/-- The block indices over the grid: the left array's and the result's blocks move down with the point, the right
    matrix stays. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's value at (p, q): the sum over k of left(p, k) · right(k, q). -/
theorem pay2_apply (x0 : Vec Ideal S2000x128 .f32) (x1 : Vec Ideal S128x64 .f32) (p : Fin 2000) (q : Fin 64) :
    k2_pay1 (F := Ideal) x0 x1 (ix2 p q) = ∑ k : Fin 128, x0 (ix2 p k) * x1 (ix2 k q) := by
  unfold k2_pay1
  rw [shapeCast_self]
  exact Cert.LibPlainDot.matmul_plain 2000 128 64 none (truncf .bf16 x0 bitsLt_bf16_f32) (truncf .bf16 x1 bitsLt_bf16_f32) (ix2 p q)

/-- The left block at point t is rows 2000·t … of the left array. -/
theorem left2_apply (c : Dev nD) (t : Fin cfg2.N) (x : S2000x128.Idx) (i : S100000x128.Idx)
    (h0 : (i 0).val = t.val * 2000 + (x 0).val) (h1 : (i 1).val = (x 1).val) :
    (iblk2 V c 0 t : Vec Ideal S2000x128 .f32) x = (V c main_v45 : S100000x128.Idx → Elt Ideal .f32) i := by
  obtain ⟨e0, e1, -⟩ := index_facts2 t
  unfold iblk2
  rw [View.read_apply]
  show V c main_v45 _ = V c main_v45 _
  congr 1
  funext a
  apply Fin.ext
  match a with
  | ⟨0, _⟩ => show win2_0.index t (0 : Fin 2) * 2000 + 1 * (x 0).val = (i 0).val; rw [e0, h0]; omega
  | ⟨1, _⟩ => show win2_0.index t (1 : Fin 2) * 128 + 1 * (x 1).val = (i 1).val; rw [e1, h1]; omega

/-- The right block at every point is the whole right matrix. -/
theorem right2_apply (c : Dev nD) (t : Fin cfg2.N) (x : S128x64.Idx) (i : S128x64.Idx)
    (h0 : (i 0).val = (x 0).val) (h1 : (i 1).val = (x 1).val) :
    (iblk2 V c 1 t : Vec Ideal S128x64 .f32) x = (V c main_arg4 : S128x64.Idx → Elt Ideal .f32) i := by
  obtain ⟨-, -, e2, e3, -⟩ := index_facts2 t
  unfold iblk2
  rw [View.read_apply]
  show V c main_arg4 _ = V c main_arg4 _
  congr 1
  funext a
  apply Fin.ext
  match a with
  | ⟨0, _⟩ => show win2_1.index t (0 : Fin 2) * 128 + 1 * (x 0).val = (i 0).val; rw [e2, h0]; omega
  | ⟨1, _⟩ => show win2_1.index t (1 : Fin 2) * 64 + 1 * (x 1).val = (i 1).val; rw [e3, h1]; omega

/-- What point t writes back is block t of the whole product. -/
theorem flushed2_eq (c : Dev nD) (t : Fin cfg2.N) :
    (dat2 (F := Ideal) V c).flushed 2 t
      = ((cfg2.win 2).blk t).view.read (Elt Ideal) (Cert.Spec.matProd 100000 128 64 (V c main_v45) (V c main_arg4)) := by
  show (cfg2.win 2).cut (grid2.coords t) ((dat2 V c).after 2 t) = _
  rw [after2_2]
  unfold out2_2
  rw [View.canon_unit_zero origin2]
  simp only [View.ld_unit_zero (S := S2000x128) origin2, View.ld_unit_zero (S := S128x64) origin2]
  obtain ⟨-, -, -, -, e4, e5⟩ := index_facts2 t
  funext j
  show k2_pay1 (F := Ideal) (iblk2 V c 0 t) (iblk2 V c 1 t) j
    = Cert.Spec.matProd 100000 128 64 (V c main_v45) (V c main_arg4) (((cfg2.win 2).blk t).view.emb j)
  obtain ⟨p, q, rfl⟩ : ∃ (p : Fin 2000) (q : Fin 64), j = ix2 p q := ⟨j 0, j 1, eq_ix2 j⟩
  refine (pay2_apply (iblk2 V c 0 t) (iblk2 V c 1 t) p q).trans ?_
  rw [Cert.Spec.matProd_apply]
  refine Finset.sum_congr rfl fun k _ => ?_
  refine congr (congrArg HMul.hMul (left2_apply V c t _ _ ?_ rfl)) (right2_apply V c t _ _ rfl ?_)
  · show win2_2.index t (0 : Fin 2) * 2000 + 1 * p.val = t.val * 2000 + p.val
    rw [e4]; omega
  · show win2_2.index t (1 : Fin 2) * 64 + 1 * q.val = q.val
    rw [e5]; omega

/-- A row and column lie in point t's block iff each lies in the block's range on its axis. -/
theorem mem_blk2 (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v46).slice (win2_2.rect t)).set ↔ _
  rw [View.set_slice_whole, Rect.mem_set_unit]
  exact Iff.rfl

/-- Row r lies in the block of point r / 2000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 50 := N_2
  let t : Fin cfg2.N := ⟨(i 0).val / 2000, by rw [hN]; omega⟩
  obtain ⟨-, -, -, -, e4, e5⟩ := index_facts2 t
  have ht : t.val = (i 0).val / 2000 := rfl
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; rw [e4, ht]; omega
  | ⟨1, _⟩ => show win2_2.index t (1 : Fin 2) * 64 ≤ (i 1).val ∧ (i 1).val < win2_2.index t (1 : Fin 2) * 64 + 64; rw [e5]; omega

/-- After its 50 points the stage's result array is the whole product of the two arrays it found. -/
theorem final2 (c : Dev nD) :
    (dat2 (F := Ideal) V c).arrAt 2 cfg2.N = Cert.Spec.matProd 100000 128 64 (V c main_v45) (V c main_arg4) :=
  (dat2 (F := Ideal) V c).arrAt_eq_of_cover 2 (Cert.Spec.matProd 100000 128 64 (V c main_v45) (V c main_arg4))
    (fun t _ => flushed2_eq V c t) cover2

end Cert.KernelIdeal.Stage

end
-- ==== Proof.Region3.lean ====
/-
  The fourth tiled stage: a one-row matrix added to every row of a [100000, 64] array, 2000 rows at a time.

  A grid point t (of 50) holds rows 2000·t … 2000·t + 1999 of the array and the whole row, and writes the same rows of the
  result. Entry (p, q) of what it writes is block(p, q) + row(0, q), the row repeated down the block; that is entry
  (2000·t + p, q) of the whole array's image, which depends on that one entry and on the row only. Every row r lies in
  the block of point r / 2000, so after the 50 points the result array is the image of the whole array.
-/
import proofs.«102344_j45114336477305_1_alg».proof.Proof.Gen.KernelIdeal.Frame
import proofs.«102344_j45114336477305_1_alg».proof.Proof.Spec
import proofs.«102344_j45114336477305_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Stage

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's accesses start at the origin of their buffers. -/
theorem origin3 : (![0, 0] : Fin 2 → Nat) = fun _ => 0 := funext fun a => by fin_cases a <;> rfl

/-- The block indices over the grid: the array's and the result's blocks move down with the point, the row stays. -/
theorem index_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's value at (p, q): the block's entry plus the row's entry in column q. -/
theorem pay3_apply (x0 : Vec Ideal S2000x64 .f32) (x1 : Vec Ideal S1x64 .f32) (p : Fin 2000) (q : Fin 64) :
    k3_pay1 (F := Ideal) x0 x1 (ix2 p q) = x0 (ix2 p q) + x1 (ix2 (0 : Fin 1) q) := by
  unfold k3_pay1
  rw [shapeCast_self, shapeCast_self]
  show x0 (ix2 p q) + broadcastTo S2000x64 x1 broadcasts_S1x64_S2000x64 (ix2 p q) = _
  rw [broadcastTo_apply x1 broadcasts_S1x64_S2000x64 (ix2 p q) (ix2 (0 : Fin 1) q) (fun a => by
    match a with
    | ⟨0, _⟩ => rfl
    | ⟨1, _⟩ => rfl)]

/-- The array's block at point t is rows 2000·t … of the array. -/
theorem left3_apply (c : Dev nD) (t : Fin cfg3.N) (x : S2000x64.Idx) (i : S100000x64.Idx)
    (h0 : (i 0).val = t.val * 2000 + (x 0).val) (h1 : (i 1).val = (x 1).val) :
    (iblk3 V c 0 t : Vec Ideal S2000x64 .f32) x = (V c main_v59 : S100000x64.Idx → Elt Ideal .f32) i := by
  obtain ⟨e0, e1, -⟩ := index_facts3 t
  unfold iblk3
  rw [View.read_apply]
  show V c main_v59 _ = V c main_v59 _
  congr 1
  funext a
  apply Fin.ext
  match a with
  | ⟨0, _⟩ => show win3_0.index t (0 : Fin 2) * 2000 + 1 * (x 0).val = (i 0).val; rw [e0, h0]; omega
  | ⟨1, _⟩ => show win3_0.index t (1 : Fin 2) * 64 + 1 * (x 1).val = (i 1).val; rw [e1, h1]; omega

/-- The row's block at every point is the whole row. -/
theorem right3_apply (c : Dev nD) (t : Fin cfg3.N) (x : S1x64.Idx) (i : S1x64.Idx)
    (h0 : (i 0).val = (x 0).val) (h1 : (i 1).val = (x 1).val) :
    (iblk3 V c 1 t : Vec Ideal S1x64 .f32) x = (V c main_v60 : S1x64.Idx → Elt Ideal .f32) i := by
  obtain ⟨-, -, e2, e3, -⟩ := index_facts3 t
  unfold iblk3
  rw [View.read_apply]
  show V c main_v60 _ = V c main_v60 _
  congr 1
  funext a
  apply Fin.ext
  match a with
  | ⟨0, _⟩ => show win3_1.index t (0 : Fin 2) * 1 + 1 * (x 0).val = (i 0).val; rw [e2, h0]; omega
  | ⟨1, _⟩ => show win3_1.index t (1 : Fin 2) * 64 + 1 * (x 1).val = (i 1).val; rw [e3, h1]; omega

/-- What point t writes back is block t of the whole array's image. -/
theorem flushed3_eq (c : Dev nD) (t : Fin cfg3.N) :
    (dat3 (F := Ideal) V c).flushed 2 t
      = ((cfg3.win 2).blk t).view.read (Elt Ideal) (Cert.Spec.addRow 100000 64 (V c main_v59) (V c main_v60)) := by
  show (cfg3.win 2).cut (grid3.coords t) ((dat3 V c).after 2 t) = _
  rw [after3_2]
  unfold out3_2
  rw [View.canon_unit_zero origin3]
  simp only [View.ld_unit_zero (S := S2000x64) origin3, View.ld_unit_zero (S := S1x64) origin3]
  obtain ⟨-, -, -, -, e4, e5⟩ := index_facts3 t
  funext j
  show k3_pay1 (F := Ideal) (iblk3 V c 0 t) (iblk3 V c 1 t) j
    = Cert.Spec.addRow 100000 64 (V c main_v59) (V c main_v60) (((cfg3.win 2).blk t).view.emb j)
  obtain ⟨p, q, rfl⟩ : ∃ (p : Fin 2000) (q : Fin 64), j = ix2 p q := ⟨j 0, j 1, eq_ix2 j⟩
  refine (pay3_apply (iblk3 V c 0 t) (iblk3 V c 1 t) p q).trans ?_
  rw [Cert.Spec.addRow_apply]
  have hl := left3_apply V c t (ix2 p q) (((cfg3.win 2).blk t).view.emb (ix2 p q))
    (by show win3_2.index t (0 : Fin 2) * 2000 + 1 * p.val = t.val * 2000 + p.val; rw [e4]; omega)
    (by show win3_2.index t (1 : Fin 2) * 64 + 1 * q.val = q.val; rw [e5]; omega)
  have hr := right3_apply V c t (ix2 (0 : Fin 1) q) (ix2 (0 : Fin 1) ((((cfg3.win 2).blk t).view.emb (ix2 p q)) 1)) rfl
    (by show win3_2.index t (1 : Fin 2) * 64 + 1 * q.val = q.val; rw [e5]; omega)
  rw [hl, hr]

/-- A row and column lie in point t's block iff each lies in the block's range on its axis. -/
theorem mem_blk3 (t : Fin cfg3.N) (i : S100000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v61).slice (win3_2.rect t)).set ↔ _
  rw [View.set_slice_whole, Rect.mem_set_unit]
  exact Iff.rfl

/-- Row r lies in the block of point r / 2000. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 50 := N_3
  let t : Fin cfg3.N := ⟨(i 0).val / 2000, by rw [hN]; omega⟩
  obtain ⟨-, -, -, -, e4, e5⟩ := index_facts3 t
  have ht : t.val = (i 0).val / 2000 := rfl
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; rw [e4, ht]; omega
  | ⟨1, _⟩ => show win3_2.index t (1 : Fin 2) * 64 ≤ (i 1).val ∧ (i 1).val < win3_2.index t (1 : Fin 2) * 64 + 64; rw [e5]; omega

/-- After its 50 points the stage's result array is the image of the whole array it found. -/
theorem final3 (c : Dev nD) :
    (dat3 (F := Ideal) V c).arrAt 2 cfg3.N = Cert.Spec.addRow 100000 64 (V c main_v59) (V c main_v60) :=
  (dat3 (F := Ideal) V c).arrAt_eq_of_cover 2 (Cert.Spec.addRow 100000 64 (V c main_v59) (V c main_v60))
    (fun t _ => flushed3_eq V c t) cover3

end Cert.KernelIdeal.Stage

end
-- ==== Proof.LibLayout.lean ====
/-
  Two small facts about arrays.
  * A vector of length a made a one-row matrix [1, a]: by a shape cast, or by broadcasting it along the last axis — the
    same array, entry (0, i) being entry i of the vector.
  * On the extended reals x + 0 = x for every x, the infinities included; so adding an array that is 0 everywhere
    changes nothing.
-/
import Idealize.ShloMosaic.Lib.Pipeline.Value
import Idealize.ShloMosaic.Lib.ValueLayout
import Idealize.ShloMosaic.PureOps.Ideal.Laws

noncomputable section

namespace Cert.LibLayout

open Idealize.ShloMosaic Idealize.ShloMosaic.ValueIdx

/-- The one-row matrix of a vector, by a cast or by a broadcast. -/
theorem shapeCast_eq_broadcastInDim_row {α : Type} {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  rw [shapeCast_a_1a_apply]
  refine (broadcastInDim_apply (![1] : Fin 1 → Fin 2) h' x (ix2 u i) (ix1 i) fun ax => ?_).symm
  match ax with
  | ⟨0, _⟩ =>
    show i.val = if a = 1 then 0 else i.val
    split
    · have := i.isLt; omega
    · rfl

/-- An array that is 0 everywhere. -/
def IsZero {s : Shape} (z : FVec Ideal s .f32) : Prop := ∀ j, z j = 0

/-- Adding an everywhere-zero array. -/
theorem addf_zero {s : Shape} (y z : FVec Ideal s .f32) (hz : IsZero z) : addf y z = y :=
  funext fun j => by rw [addf_apply, hz j, add_zero]

end Cert.LibLayout

end
-- ==== Proof.RefBridge.lean ====
/-
  The reference computes the same network.

  The reference's result is one composed term of its six arguments: for each layer the whole-array product, the
  propagation step, the bias broadcast to every row (and, after the first layer, the maximum with a broadcast zero).
  Its propagation steps, degrees and edge weights are spelt with the very operations the tiled program's host side
  uses, on the same edge list, so those parts are the same functions. What differs is only the spelling of the three
  kinds of dense stage, and each is the same array entry by entry:
  * the host's product of an [M, K] and a [K, N] matrix is at (r, j) the sum over k of x(r, k) · w(k, j);
  * a bias vector made a one-row matrix and then broadcast to M rows is at (r, j) the vector's entry j, which is entry
    (0, j) of the one-row matrix the tiled program reads; a broadcast scalar zero is the zero word at every index;
  * so `max (a + bias) 0` and `a + bias` are the positive-part and plain bias stages of the specification.
-/
import proofs.«102344_j45114336477305_1_alg».proof.Proof.RefRun
import proofs.«102344_j45114336477305_1_alg».proof.Proof.Glue
import proofs.«102344_j45114336477305_1_alg».proof.Proof.LibPlainDot
import proofs.«102344_j45114336477305_1_alg».proof.Proof.LibLayout
import Idealize.ShloMosaic.Lib.Pipeline.Value
import Idealize.ShloMosaic.Lib.ValueIdx

set_option maxRecDepth 16384

noncomputable section

namespace Cert.Bridge

open Idealize.ShloMosaic Idealize.ShloMosaic.ValueIdx Idealize.ShloMosaic.TcCoe Idealize.SL.Sem

/-! ## The dense stages, entry by entry -/

/-- The host's plain matrix product is the specification's. -/
theorem dot_eq (M K N : Nat) (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) :
    Host.dotGeneral (F := Ideal) d none x w = Cert.Spec.matProd M K N x w := by
  subst hd
  funext j
  exact Cert.LibPlainDot.dotGeneral_plain M K N none x w j

/-- A vector made a one-row matrix and broadcast to M rows, at (r, j): entry (0, j) of the one-row matrix. -/
theorem row_bcast (M N : Nat) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hc : (⟨1, ![N]⟩ : Shape).ShapeCasts ⟨2, ![1, N]⟩) (j : (⟨2, ![M, N]⟩ : Shape).Idx) :
    broadcastInDim ⟨2, ![M, N]⟩ ![0, 1] h2 (broadcastInDim ⟨2, ![1, N]⟩ ![1] h1 b) j
      = shapeCast ⟨2, ![1, N]⟩ b hc (ix2 (0 : Fin 1) (j 1)) := by
  rw [Cert.LibLayout.shapeCast_eq_broadcastInDim_row b hc h1]
  refine broadcastInDim_apply (![0, 1] : Fin 2 → Fin 2) h2 _ j (ix2 (0 : Fin 1) (j 1)) fun a => ?_
  match a with
  | ⟨0, _⟩ => rfl
  | ⟨1, _⟩ =>
    show (j 1).val = if N = 1 then 0 else (j 1).val
    have hj : (j 1).val < N := (j 1).isLt
    split
    · omega
    · rfl

/-- A broadcast scalar zero is the zero word at every index. -/
theorem zero_bcast (s : Shape) (h : (⟨0, ![]⟩ : Shape).BroadcastsInDim s (![] : Fin 0 → Fin s.rank)) (j : s.Idx) :
    broadcastInDim s ![] h (constant (F := Ideal) ⟨0, ![]⟩ .f32 0x00000000#32) j = Ideal.ofBits .f32 0x00000000#32 := by
  rw [broadcastInDim_apply (![] : Fin 0 → Fin s.rank) h _ j ix0 (fun a => a.elim0)]
  rfl

/-- Bias on every row, then the maximum with zero. -/
theorem bias_pos_eq (M N : Nat) (a : FVec Ideal ⟨2, ![M, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2))
    (hc : (⟨1, ![N]⟩ : Shape).ShapeCasts ⟨2, ![1, N]⟩) :
    maximumf (F := Ideal) (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = Cert.Spec.addRowPos M N a (shapeCast ⟨2, ![1, N]⟩ b hc) := by
  funext j
  rw [maximumf_apply, addf_apply, row_bcast M N b h1 h2 hc j, zero_bcast _ h0 j]
  rfl

/-- Bias on every row. -/
theorem bias_eq (M N : Nat) (a : FVec Ideal ⟨2, ![M, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hc : (⟨1, ![N]⟩ : Shape).ShapeCasts ⟨2, ![1, N]⟩) :
    addf (F := Ideal) a (broadcastInDim ⟨2, ![M, N]⟩ ![0, 1] h2 (broadcastInDim ⟨2, ![1, N]⟩ ![1] h1 b))
      = Cert.Spec.addRow M N a (shapeCast ⟨2, ![1, N]⟩ b hc) := by
  funext j
  rw [addf_apply, row_bcast M N b h1 h2 hc j]
  rfl

/-! ## The reference's composed term -/

open Cert.KernelIdeal.Glue in
/-- The reference's result, with the propagation steps named: the same tree of operations. -/
theorem ref_named (m' : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v90 (F := Ideal) m' c
      = addf (F := Ideal) (agg64 (m' ((c.tc : Thread Cert.ReferenceIdeal.nD Cert.ReferenceIdeal.τ).loc Cert.ReferenceIdeal.main_arg1)) (norm (m' ((c.tc : Thread Cert.ReferenceIdeal.nD Cert.ReferenceIdeal.τ).loc Cert.ReferenceIdeal.main_arg1)))
          (Host.dotGeneral (F := Ideal) (φ₁ := .f32) (φ₂ := .f32) Cert.ReferenceIdeal.dot_S100000x128_S128x64_S100000x64_1_0_0_1_n_n none
            (maximumf (F := Ideal) (addf (F := Ideal) (agg128 (m' ((c.tc : Thread Cert.ReferenceIdeal.nD Cert.ReferenceIdeal.τ).loc Cert.ReferenceIdeal.main_arg1)) (norm (m' ((c.tc : Thread Cert.ReferenceIdeal.nD Cert.ReferenceIdeal.τ).loc Cert.ReferenceIdeal.main_arg1)))
                (Host.dotGeneral (F := Ideal) (φ₁ := .f32) (φ₂ := .f32) Cert.ReferenceIdeal.dot_S100000x768_S768x128_S100000x128_1_0_0_1_n_n none (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2))))
              (broadcastInDim Cert.ReferenceIdeal.S100000x128 ![0, 1] Cert.ReferenceIdeal.Facts₀.bcast_S1x128_S100000x128_0_1 (broadcastInDim Cert.ReferenceIdeal.S1x128 ![1] Cert.ReferenceIdeal.Facts₀.bcast_S128_S1x128_1 (m' ((c.tc : Thread Cert.ReferenceIdeal.nD Cert.ReferenceIdeal.τ).loc Cert.ReferenceIdeal.main_arg3)))))
              (broadcastInDim Cert.ReferenceIdeal.S100000x128 ![] Cert.ReferenceIdeal.Facts₀.bcast_S_S100000x128 (constant (F := Ideal) Cert.ReferenceIdeal.S_ .f32 0x00000000#32)))
            (m' ((c.tc : Thread Cert.ReferenceIdeal.nD Cert.ReferenceIdeal.τ).loc Cert.ReferenceIdeal.main_arg4))))
          (broadcastInDim Cert.ReferenceIdeal.S100000x64 ![0, 1] Cert.ReferenceIdeal.Facts₀.bcast_S1x64_S100000x64_0_1 (broadcastInDim Cert.ReferenceIdeal.S1x64 ![1] Cert.ReferenceIdeal.Facts₀.bcast_S64_S1x64_1 (m' ((c.tc : Thread Cert.ReferenceIdeal.nD Cert.ReferenceIdeal.τ).loc Cert.ReferenceIdeal.main_arg5)))) := by
  unfold Cert.ReferenceIdeal.ValueP.res_main_v90
  rfl

/-- THE REFERENCE'S RESULT is the network of its six arguments. -/
theorem ref_result (m' : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v90 (F := Ideal) m' c
      = Cert.KernelIdeal.Glue.network (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) := by
  rw [ref_named]
  unfold Cert.KernelIdeal.Glue.network
  rw [dot_eq 100000 768 128 Cert.ReferenceIdeal.dot_S100000x768_S768x128_S100000x128_1_0_0_1_n_n rfl,
    bias_pos_eq 100000 128 _ _ _ _ _ Cert.KernelIdeal.Facts₀.shapeCasts_S128_S1x128,
    dot_eq 100000 128 64 Cert.ReferenceIdeal.dot_S100000x128_S128x64_S100000x64_1_0_0_1_n_n rfl,
    bias_eq 100000 64 _ _ _ _ Cert.KernelIdeal.Facts₀.shapeCasts_S64_S1x64]

end Cert.Bridge

end
-- ==== Proof.lean ====
/-
  A two-layer graph convolution, tiled, against its plain reference: the two idealized programs compute the same array.

  With A the edge list (self loops appended), d the degrees, and Â the propagation step "gather the rows at the edges'
  sources, scale each by d^(-1/2) at both ends of its edge, add them up at the edges' destinations", both programs compute
      out = Â (max (Â (x · W1) + b1) 0 · W2) + b2
  on the extended reals. The reference does it with whole-array operations. The tiled program runs four stages over row
  blocks of 2000 rows — the two products, the bias with the positive part, the last bias — among stretches of host
  operations that are the reference's own gathers and scatter-adds.
  * A row block of a product depends only on the same rows of its left factor, and a row block of a bias stage only on
    the same rows of its input: each stage's result array is the whole-array function (Region0 … Region3, over Spec).
  * The run folds the buffer contents through @main; at the result array the fold is the network of the six arguments
    (KernelRun, HostChain, over Glue).
  * The reference's composed term is the same network: its dense stages are the specification's entry by entry, its
    host side is spelt identically (RefBridge).
  No law of arithmetic beyond reading each operation at an index is used, so finiteness of the inputs is not needed.
  The frames are the generated ones; the reference's frame is its run with the result dropped; the idealization
  rewrote nothing.
-/
import proofs.«102344_j45114336477305_1_alg».proof.Defs
import proofs.«102344_j45114336477305_1_alg».proof.Proof.Gen.Kernel
import proofs.«102344_j45114336477305_1_alg».proof.Proof.Gen.Kernel.Skeleton
import proofs.«102344_j45114336477305_1_alg».proof.Proof.Gen.Kernel.Launch
import proofs.«102344_j45114336477305_1_alg».proof.Proof.Gen.Kernel.Points
import proofs.«102344_j45114336477305_1_alg».proof.Proof.Gen.Kernel.Frame
import proofs.«102344_j45114336477305_1_alg».proof.Proof.Gen.KernelIdeal
import proofs.«102344_j45114336477305_1_alg».proof.Proof.Gen.KernelIdeal.Skeleton
import proofs.«102344_j45114336477305_1_alg».proof.Proof.Gen.KernelIdeal.Launch
import proofs.«102344_j45114336477305_1_alg».proof.Proof.Gen.KernelIdeal.Points
import proofs.«102344_j45114336477305_1_alg».proof.Proof.Gen.KernelIdeal.Frame
import proofs.«102344_j45114336477305_1_alg».proof.Proof.Gen.ReferenceIdeal
import proofs.«102344_j45114336477305_1_alg».proof.Proof.Gen.Pre_finite_inputs
import proofs.«102344_j45114336477305_1_alg».proof.Proof.KernelRun
import proofs.«102344_j45114336477305_1_alg».proof.Proof.HostChain
import proofs.«102344_j45114336477305_1_alg».proof.Proof.Region0
import proofs.«102344_j45114336477305_1_alg».proof.Proof.Region1
import proofs.«102344_j45114336477305_1_alg».proof.Proof.Region2
import proofs.«102344_j45114336477305_1_alg».proof.Proof.Region3
import proofs.«102344_j45114336477305_1_alg».proof.Proof.RefRun
import proofs.«102344_j45114336477305_1_alg».proof.Proof.RefBridge
import Idealize.ShloMosaic.Adequacy
import Idealize.ShloMosaic.Init

noncomputable section

namespace Cert.Proof

open Idealize.ShloMosaic Idealize.ShloMosaic.TcCoe Idealize.SL.Sem

/-- The tiled program as printed runs and keeps its arguments. -/
theorem frame_kernel : Cert.frame_Kernel := fun m ρ _ => Cert.Kernel.Gen.frame m ρ

/-- The idealized tiled program runs and keeps its arguments. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with the network of the six arguments in their result array. -/
theorem algebraic : Cert.algebraic_KernelIdeal_ReferenceIdeal := by
  intro m ρ m' ρ' _ hagree
  refine ⟨fun c => Cert.KernelIdeal.Glue.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.W9_v61 m ρ c Cert.KernelIdeal.Stage.final0 Cert.KernelIdeal.Stage.final1
        Cert.KernelIdeal.Stage.final2 Cert.KernelIdeal.Stage.final3), (h c).2⟩)
      (Cert.KernelIdeal.Whole.run_main (F := Ideal) m ρ)
  · refine (θ_run Cert.ReferenceIdeal.defs _ _).mono (fun _ h c => ⟨(h c).1.trans ?_, (h c).2⟩)
      (Cert.ReferenceIdeal.ValueP.run (F := Ideal) m' ρ')
    rw [Cert.Bridge.ref_result, (hagree c).1, (hagree c).2.1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
